-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x64 .f32) (main_arg7 : FVec F S64x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : IVec S2x1600000 32) (main_arg3 : FVec F S64x64 .f32) (main_arg4 : FVec F S64x64 .f32) (main_arg5 : FVec F S64 .f32) (main_arg6 : FVec F S64x64 .f32) (main_arg7 : FVec F S64x64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S100000x128 : Shape := ⟨2, ![100000, 128]⟩
abbrev S5000x64 : Shape := ⟨2, ![5000, 64]⟩
abbrev S5000x1 : Shape := ⟨2, ![5000, 1]⟩
abbrev S5000x128 : Shape := ⟨2, ![5000, 128]⟩

abbrev nBuf : Space → Nat
  | .hbm => 60
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S2x1600000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S_, .f32⟩
  | .hbm, ⟨23, _⟩ => ⟨S100000x64, .f32⟩
  | .hbm, ⟨24, _⟩ => ⟨S1600000x1, .i32⟩
  | .hbm, ⟨25, _⟩ => ⟨S100000x64, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S100000, .f32⟩
  | .hbm, ⟨30, _⟩ => ⟨S1600000x1, .i32⟩
  | .hbm, ⟨31, _⟩ => ⟨S100000, .f32⟩
  | .hbm, ⟨32, _⟩ => ⟨S100000x1, .f32⟩
  | .hbm, ⟨33, _⟩ => ⟨S1x1600000, .i32⟩
  | .hbm, ⟨34, _⟩ => ⟨S1600000, .i32⟩
  | .hbm, ⟨35, _⟩ => ⟨S1x1600000, .i32⟩
  | .hbm, ⟨36, _⟩ => ⟨S1600000, .i32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x64, .f32⟩
  | .hbm, ⟨46, _⟩ => ⟨S_, .f32⟩
  | .hbm, ⟨47, _⟩ => ⟨S100000x64, .f32⟩
  | .hbm, ⟨48, _⟩ => ⟨S1600000x1, .i32⟩
  | .hbm, ⟨49, _⟩ => ⟨S100000x64, .f32⟩
  | .hbm, ⟨50, _⟩ => ⟨S_, .f32⟩
  | .hbm, ⟨51, _⟩ => ⟨S1600000, .f32⟩
  | .hbm, ⟨52, _⟩ => ⟨S_, .f32⟩
  | .hbm, ⟨53, _⟩ => ⟨S100000, .f32⟩
  | .hbm, ⟨54, _⟩ => ⟨S1600000x1, .i32⟩
  | .hbm, ⟨55, _⟩ => ⟨S100000, .f32⟩
  | .hbm, ⟨56, _⟩ => ⟨S100000x1, .f32⟩
  | .hbm, ⟨57, _⟩ => ⟨S1x64, .f32⟩
  | .hbm, ⟨58, _⟩ => ⟨S1x64, .f32⟩
  | .hbm, ⟨59, _⟩ => ⟨S100000x128, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S5000x64, .f32⟩
  | .local _ .vmem, ⟨7, _⟩ => ⟨S5000x64, .f32⟩
  | .local _ .vmem, ⟨8, _⟩ => ⟨S5000x1, .f32⟩
  | .local _ .vmem, ⟨9, _⟩ => ⟨S5000x1, .f32⟩
  | .local _ .vmem, ⟨10, _⟩ => ⟨S64x64, .f32⟩
  | .local _ .vmem, ⟨11, _⟩ => ⟨S64x64, .f32⟩
  | .local _ .vmem, ⟨12, _⟩ => ⟨S1x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S5000x128, .f32⟩
  | .local _ .vmem, ⟨17, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  concatenates_S5000x64_S5000x64_S5000x128_d1 : Shape.Concatenates [S5000x64, S5000x64] S5000x128 1
  inb_S5000x128_S5000x128_0_0 : ∀ a, (![0, 0] : Fin 2 → Nat) a + S5000x128.size a ≤ S5000x128.size a
  h_S5000x128 : 0 < S5000x128.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S100000x1.size a
  hwx0_4 : ∀ i : grid0.Coords, EltTy.bits .f32 = 32 ∨ (Rect.block (s := S100000x1) S5000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x128.size a ≤ S100000x128.size a
  hwx0_11 : ∀ i : grid0.Coords, EltTy.bits .f32 = 32 ∨ (Rect.block (s := S100000x128) S5000x128.size (cc0_transform_11 i) (hinb0_11 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v37) S5000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v38) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v39) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v40) S5000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S100000x128 : Shape := ⟨2, ![100000, 128]⟩

abbrev nBuf : Space → Nat
  | .hbm => 84
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S2x1600000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S_, .f32⟩
  | .hbm, ⟨23, _⟩ => ⟨S100000x64, .f32⟩
  | .hbm, ⟨24, _⟩ => ⟨S1600000x1, .i32⟩
  | .hbm, ⟨25, _⟩ => ⟨S100000x64, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S100000, .f32⟩
  | .hbm, ⟨30, _⟩ => ⟨S1600000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x64, .f32⟩
  | .hbm, ⟨37, _⟩ => ⟨S100000x64, .f32⟩
  | .hbm, ⟨38, _⟩ => ⟨S64x64, .f32⟩
  | .hbm, ⟨39, _⟩ => ⟨S100000x64, .f32⟩
  | .hbm, ⟨40, _⟩ => ⟨S64x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S1x1600000, .i32⟩
  | .hbm, ⟨47, _⟩ => ⟨S1600000, .i32⟩
  | .hbm, ⟨48, _⟩ => ⟨S1x1600000, .i32⟩
  | .hbm, ⟨49, _⟩ => ⟨S1600000, .i32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x64, .f32⟩
  | .hbm, ⟨74, _⟩ => ⟨S100000x64, .f32⟩
  | .hbm, ⟨75, _⟩ => ⟨S64x64, .f32⟩
  | .hbm, ⟨76, _⟩ => ⟨S100000x64, .f32⟩
  | .hbm, ⟨77, _⟩ => ⟨S64x64, .f32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | .hbm, ⟨82, _⟩ => ⟨S100000x64, .f32⟩
  | .hbm, ⟨83, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_4 : Ref sig .tc := ⟨.hbm, 50, rfl⟩
abbrev main_v35 : Ref sig .tc := ⟨.hbm, 51, rfl⟩
abbrev main_v36 : Ref sig .tc := ⟨.hbm, 52, rfl⟩
abbrev main_c_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x64_S100000x64_S100000x128_d1 : Shape.Concatenates [S100000x64, S100000x64] S100000x128 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  The signed graph convolution as ONE function of its data, index by index, on the extended reals.

  For one edge sign the data are: the node features `x` [100000, 64]; the per-node sum `S` [100000, 64] of the
  features of the node's in-neighbours and their number `C` [100000] (both are the same segment sums in the two
  programs, and nothing here looks inside them); the weight matrices `W`, `Wc` [64, 64] and the bias `b` [64].
  Row `r` of that sign's half of the result is

      mean(r) · Wᵀ + (x(r) · Wcᵀ + b),      mean(r) = S(r) / max(C(r), 1),

  and the result [100000, 128] is the positive half in columns 0 … 63 beside the negative half in columns 64 … 127.
-/
import Idealize.ShloMosaic.PureOps.Ideal
import Idealize.ShloMosaic.Lib.ValueIdx

noncomputable section

open scoped BigOperators

namespace Cert.SignedConv

open Idealize.ShloMosaic Idealize.ShloMosaic.ValueIdx

/-- An extended-real matrix of literal extents. -/
abbrev Mat (a b : Nat) : Type := (⟨2, ![a, b]⟩ : Shape).Idx → EReal
/-- An extended-real vector of a literal extent. -/
abbrev Col (a : Nat) : Type := (⟨1, ![a]⟩ : Shape).Idx → EReal

/-- A [100000, 1] column as a vector over the nodes. -/
def col (v : (⟨2, ![100000, 1]⟩ : Shape).Idx → EReal) : Col 100000 := fun i => v (ix2 (i 0) (0 : Fin 1))
/-- A [1, 64] row as a vector over the features. -/
def row (v : (⟨2, ![1, 64]⟩ : Shape).Idx → EReal) : Col 64 := fun i => v (ix2 (0 : Fin 1) (i 0))

theorem col_apply (v : (⟨2, ![100000, 1]⟩ : Shape).Idx → EReal) (r : Fin 100000) : col v (ix1 r) = v (ix2 r (0 : Fin 1)) := rfl
theorem row_apply (v : (⟨2, ![1, 64]⟩ : Shape).Idx → EReal) (j : Fin 64) : row v (ix1 j) = v (ix2 (0 : Fin 1) j) := rfl

/-- The number one, as the f32 word both programs spell it by (never evaluated: the same word on both sides). -/
abbrev one : EReal := Ideal.ofBits .f32 0x3F800000#32

/-- The mean of node `r`'s in-neighbours' feature `k`: their sum over their number, the number clamped below by one
    (a node without in-neighbours has sum 0 and mean 0). -/
def mean (S : Mat 100000 64) (C : Col 100000) (r : Fin 100000) (k : Fin 64) : EReal :=
  Ideal.div (S (ix2 r k)) (max (C (ix1 r)) one)

/-- Entry (r, j) of one sign's half: the mean row against row `j` of `W`, plus the node's own row against row `j`
    of `Wc` and the bias. -/
def half (x S : Mat 100000 64) (C : Col 100000) (W Wc : Mat 64 64) (b : Col 64) (r : Fin 100000) (j : Fin 64) : EReal :=
  (∑ k : Fin 64, mean S C r k * W (ix2 j k)) + ((∑ k : Fin 64, x (ix2 r k) * Wc (ix2 j k)) + b (ix1 j))

/-- The whole result: the positive half beside the negative half. -/
def result (x Sp : Mat 100000 64) (Cp : Col 100000) (Sn : Mat 100000 64) (Cn : Col 100000)
    (Wp Wpc : Mat 64 64) (bp : Col 64) (Wn Wnc : Mat 64 64) (bn : Col 64) : Mat 100000 128 := fun i =>
  if h : (i 1).val < 64 then half x Sp Cp Wp Wpc bp ⟨(i 0).val, idx2_lt0 i⟩ ⟨(i 1).val, h⟩
  else half x Sn Cn Wn Wnc bn ⟨(i 0).val, idx2_lt0 i⟩ ⟨(i 1).val - 64, by have := idx2_lt1 i; omega⟩

/-- The result in a left column. -/
theorem result_left (x Sp : Mat 100000 64) (Cp : Col 100000) (Sn : Mat 100000 64) (Cn : Col 100000)
    (Wp Wpc : Mat 64 64) (bp : Col 64) (Wn Wnc : Mat 64 64) (bn : Col 64) (i : (⟨2, ![100000, 128]⟩ : Shape).Idx)
    (r : Fin 100000) (j : Fin 64) (hr : (i 0).val = r.val) (hj : (i 1).val = j.val) :
    result x Sp Cp Sn Cn Wp Wpc bp Wn Wnc bn i = half x Sp Cp Wp Wpc bp r j := by
  unfold result
  have h : (i 1).val < 64 := by have := j.isLt; omega
  rw [dif_pos h]
  congr 1 <;> exact Fin.ext (by assumption)

/-- The result in a right column. -/
theorem result_right (x Sp : Mat 100000 64) (Cp : Col 100000) (Sn : Mat 100000 64) (Cn : Col 100000)
    (Wp Wpc : Mat 64 64) (bp : Col 64) (Wn Wnc : Mat 64 64) (bn : Col 64) (i : (⟨2, ![100000, 128]⟩ : Shape).Idx)
    (r : Fin 100000) (j : Fin 64) (hr : (i 0).val = r.val) (hj : (i 1).val = j.val + 64) :
    result x Sp Cp Sn Cn Wp Wpc bp Wn Wnc bn i = half x Sn Cn Wn Wnc bn r j := by
  unfold result
  have h : ¬ (i 1).val < 64 := by omega
  rw [dif_neg h]
  congr 1 <;> exact Fin.ext (by first | assumption | (show (i 1).val - 64 = j.val; omega))

/-- The kernel adds the bias last, the reference adds it to the second product first: one sum, since addition of
    extended reals is associative. -/
theorem half_assoc (x S : Mat 100000 64) (C : Col 100000) (W Wc : Mat 64 64) (b : Col 64) (r : Fin 100000) (j : Fin 64) :
    ((∑ k : Fin 64, mean S C r k * W (ix2 j k)) + (∑ k : Fin 64, x (ix2 r k) * Wc (ix2 j k))) + b (ix1 j) = half x S C W Wc b r j := by
  unfold half
  exact add_assoc _ _ _

end Cert.SignedConv

end
-- ==== Proof.Body.lean ====
/-
  The kernel body's arithmetic, read at an index of the output block, on the extended reals.

  At a grid point the body holds a block of 5000 nodes: their features `x`, their neighbour sums `s` and counts
  `cnt` (a [5000, 1] column) for each edge sign, the whole weight matrices and the biases as [1, 64] rows. Entry
  (p, q) of a sign's half of the output block is

      (Σ_k (s[p,k] / max(cnt[p,0], 1)) · w[q,k]  +  Σ_k x[p,k] · wc[q,k])  +  b[0,q] :

  the two matrix products run into zero accumulators against the TRANSPOSED weights, so each is the plain sum over
  the 64 features; the changes of float format are the identity on the extended reals; the count column and the bias
  row are broadcast along the other axis. The output block is the positive half beside the negative half.
-/
import proofs.«164595_j57286273794081_2_alg».proof.Proof.Gen.KernelIdeal.Skeleton
import proofs.«164595_j57286273794081_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.SignedConv

/-- A [5000, 1] column broadcast to [5000, 64] reads, at (p, q), the column at row p. -/
theorem bcol_apply (v : S5000x1.Idx → EReal) (h : S5000x1.Broadcasts S5000x64) (p : Fin 5000) (q : Fin 64) :
    broadcastTo S5000x64 v h (ix2 p q) = v (ix2 p (0 : Fin 1)) := by
  refine broadcastTo_apply v h (ix2 p q) (ix2 p (0 : Fin 1)) fun ax => ?_
  match ax with
  | ⟨0, _⟩ => show p.val = if (5000 : Nat) = 1 then 0 else p.val; rw [if_neg (by decide)]
  | ⟨1, _⟩ => show (0 : Nat) = if (1 : Nat) = 1 then 0 else q.val; rw [if_pos rfl]

local notation "dotD" => dot_S5000x64_S64x64_S5000x64_1_0_0_1_n_n

theorem lhs0 (i : S5000x64.Idx) (c : (dotD).contr.Idx) : ((dotD).lhsIdx i c 0).val = (i 0).val := by
  unfold DotDims.lhsIdx
  rw [dif_neg (show ¬(0 : Fin S5000x64.rank) ∈ (dotD).lhsBatch by decide), dif_pos (show (0 : Fin S5000x64.rank) ∈ (dotD).lhsNonContracting by decide)]
  rfl

theorem rhs1 (i : S5000x64.Idx) (c : (dotD).contr.Idx) : ((dotD).rhsIdx i c 1).val = (i 1).val := by
  unfold DotDims.rhsIdx
  rw [dif_neg (show ¬(1 : Fin S64x64.rank) ∈ (dotD).rhsBatch by decide), dif_pos (show (1 : Fin S64x64.rank) ∈ (dotD).rhsNonContracting by decide)]
  rfl

/-- The matrix unit's product into a zero accumulator, at (p, q): the sum over the 64 contracted features. -/
theorem mm_apply (A : FVec Ideal S5000x64 .bf16) (B : FVec Ideal S64x64 .bf16) (p : Fin 5000) (q : Fin 64) :
    matmul (dotD) none A B (constant S5000x64 .f32 0x00000000#32) (ix2 p q) = ∑ k : Fin 64, A (ix2 p k) * B (ix2 k q) := by
  show FloatOps.matmul (dotD) none A B (constant S5000x64 .f32 0x00000000#32) (ix2 p q) = _
  rw [Ideal.matmul_constant_zero_apply, ← Equiv.sum_comp (contrEquiv1 (dotD) 64 rfl rfl).symm]
  refine Finset.sum_congr rfl fun k _ => ?_
  have hk := contrEquiv1_symm_val (dotD) 64 rfl rfl k
  have el : (dotD).lhsIdx (ix2 p q) ((contrEquiv1 (dotD) 64 rfl rfl).symm k) = ix2 p k := funext fun a => Fin.ext (by
    match a with
    | ⟨0, _⟩ => exact lhs0 _ _
    | ⟨1, _⟩ => exact ((dotD).lhsIdx_val_of_single rfl _ _).trans hk)
  have er : (dotD).rhsIdx (ix2 p q) ((contrEquiv1 (dotD) 64 rfl rfl).symm k) = ix2 k q := funext fun a => Fin.ext (by
    match a with
    | ⟨0, _⟩ => exact ((dotD).rhsIdx_val_of_single rfl _ _).trans hk
    | ⟨1, _⟩ => exact rhs1 _ _)
  rw [el, er]

/-- Entry (p, q) of one sign's half of the output block, from the block's loads. -/
def blkHalf (x s : S5000x64.Idx → EReal) (cnt : S5000x1.Idx → EReal) (w wc : S64x64.Idx → EReal) (b : S1x64.Idx → EReal)
    (p : Fin 5000) (q : Fin 64) : EReal :=
  ((∑ k : Fin 64, Ideal.div (s (ix2 p k)) (max (cnt (ix2 p (0 : Fin 1))) one) * w (ix2 q k))
    + ∑ k : Fin 64, x (ix2 p k) * wc (ix2 q k)) + b (ix2 (0 : Fin 1) q)

/-- The body's expression for a half — both products against the transposed weights, then the bias row — at (p, q). -/
theorem half_apply (x s : FVec Ideal S5000x64 .f32) (cnt : FVec Ideal S5000x1 .f32) (w wc : FVec Ideal S64x64 .f32) (b : FVec Ideal S1x64 .f32)
    (hb : S5000x1.Broadcasts S5000x64) (ht : S64x64.Transposes [1, 0] S64x64) (hr : S1x64.Broadcasts S5000x64)
    (hlt : FTy.bf16.bits < FTy.f32.bits) (p : Fin 5000) (q : Fin 64) :
    (addf (addf
        (matmul (dotD) none
          (truncf .bf16 (divf s (broadcastTo S5000x64 (maximumf cnt (broadcast S5000x1 (Scalar.ofBits .f32 0x3F800000#32))) hb)) hlt)
          (transpose S64x64 [1, 0] (truncf .bf16 w hlt) ht) (constant S5000x64 .f32 0x00000000#32))
        (matmul (dotD) none (truncf .bf16 x hlt) (transpose S64x64 [1, 0] (truncf .bf16 wc hlt) ht) (constant S5000x64 .f32 0x00000000#32)))
      (broadcastTo S5000x64 b hr) : FVec Ideal S5000x64 .f32) (ix2 p q)
    = blkHalf x s cnt w wc b p q := by
  unfold blkHalf
  rw [addf_apply, addf_apply, mm_apply, mm_apply, broadcastTo_1b_ab_apply]
  congr 2
  · refine Finset.sum_congr rfl fun k _ => ?_
    rw [transpose_ix2_apply]
    show Ideal.div (s (ix2 p k)) (broadcastTo S5000x64 (maximumf cnt (broadcast S5000x1 (Scalar.ofBits .f32 0x3F800000#32))) hb (ix2 p k)) * w (ix2 q k) = _
    rw [bcol_apply]
    rfl
  · refine Finset.sum_congr rfl fun k _ => ?_
    rw [transpose_ix2_apply]
    rfl

/-- The body's stored value at an index `j` in row p and a LEFT column q < 64: the positive half, from the blocks of the positive
    segment sums, the node features, the positive weights and bias. -/
theorem pay_left (x0 x1 : Vec Ideal S5000x64 .f32) (x2 : Vec Ideal S5000x1 .f32) (x3 : Vec Ideal S5000x64 .f32) (x4 : Vec Ideal S5000x1 .f32)
    (x5 x6 : Vec Ideal S64x64 .f32) (x7 : Vec Ideal S1x64 .f32) (x8 x9 : Vec Ideal S64x64 .f32) (x10 : Vec Ideal S1x64 .f32)
    (j : S5000x128.Idx) (p : Fin 5000) (q : Fin 64) (hp : (j 0).val = p.val) (hc : (j 1).val = q.val) :
    k0_pay1 (k0_pay2 x0) (k0_pay3 x3 x4) (k0_pay4 x8) (k0_pay5 x9) (k0_pay6 x0 x1 x2 x5 x6) (k0_pay7 x7) x10 j
      = blkHalf x0 x1 x2 x5 x6 x7 p q := by
  unfold k0_pay1
  refine (concatenate_pair_apply_left (t := S5000x128) (s₁ := S5000x64) (s₂ := S5000x64) (1 : Fin 2) _ _ concatenates_S5000x64_S5000x64_S5000x128_d1 j rfl (ix2 p q)
    (fun b => match b with | ⟨0, _⟩ => hp.symm | ⟨1, _⟩ => hc.symm)).trans ?_
  unfold k0_pay6 k0_pay7 k0_pay2
  simp only [shapeCast_self]
  exact half_apply x0 x1 x2 x5 x6 x7 _ _ _ _ p q

/-- The body's stored value at an index `j` in row p and a RIGHT column 64 + q: the negative half. -/
theorem pay_right (x0 x1 : Vec Ideal S5000x64 .f32) (x2 : Vec Ideal S5000x1 .f32) (x3 : Vec Ideal S5000x64 .f32) (x4 : Vec Ideal S5000x1 .f32)
    (x5 x6 : Vec Ideal S64x64 .f32) (x7 : Vec Ideal S1x64 .f32) (x8 x9 : Vec Ideal S64x64 .f32) (x10 : Vec Ideal S1x64 .f32)
    (j : S5000x128.Idx) (p : Fin 5000) (q : Fin 64) (hp : (j 0).val = p.val) (hc : (j 1).val = q.val + 64) :
    k0_pay1 (k0_pay2 x0) (k0_pay3 x3 x4) (k0_pay4 x8) (k0_pay5 x9) (k0_pay6 x0 x1 x2 x5 x6) (k0_pay7 x7) x10 j
      = blkHalf x0 x3 x4 x8 x9 x10 p q := by
  unfold k0_pay1
  refine (concatenate_pair_apply_right (t := S5000x128) (s₁ := S5000x64) (s₂ := S5000x64) (1 : Fin 2) _ _ concatenates_S5000x64_S5000x64_S5000x128_d1 j rfl rfl (ix2 p q)
    (fun b hb => match b with | ⟨0, _⟩ => hp.symm | ⟨1, _⟩ => absurd rfl hb) hc.symm).trans ?_
  unfold k0_pay3 k0_pay4 k0_pay5 k0_pay2
  simp only [shapeCast_self]
  exact half_apply x0 x3 x4 x8 x9 x10 _ _ _ _ p q

end Cert.KernelIdeal.Body

end
-- ==== Proof.Blocks.lean ====
/-
  From the blocks to the whole array.

  The grid has 20 points; at point `t` the row windows hold rows 5000·t … 5000·t + 4999 of their arrays (the node
  features, the two segment sums, the two count columns, the output), and the weight and bias windows hold their whole
  arrays at every point. So what point `t` writes back is block `t` of ONE whole-array function — the specification
  of the arrays the region finds —, the 20 blocks tile the [100000, 128] output (row r lies in block r / 5000), and the
  output array ends holding that function.
-/
import proofs.«164595_j57286273794081_2_alg».proof.Proof.Gen.KernelIdeal.Value
import proofs.«164595_j57286273794081_2_alg».proof.Proof.Body
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Value Cert.KernelIdeal.Body Cert.SignedConv

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 20 grid points: the row windows (0 … 4 and the output, 11) are at block (t, 0),
    the weight and bias windows (5 … 10) at block (0, 0). -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = t.val
    ∧ win0_11.index t (1 : Fin 2) = 0 :=
  (by decide +kernel : ∀ t : Fin grid0.N, _)

/-- The node that row `p` of point `t`'s blocks is. -/
def node (t : Fin cfg0.N) (p : Fin 5000) : Fin 100000 :=
  ⟨5000 * t.val + p.val, by have ht : t.val < 20 := lt_of_lt_of_eq t.isLt N_0; have := p.isLt; omega⟩

/-- Window 0's block at point `t` is rows 5000·t … 5000·t + 4999 of its array: whatever the array holds (`X`), the block read at a local
    index is the array at block index × block size + the local coordinate. -/
theorem blk0 (c : Dev nD) (t : Fin cfg0.N) (X : Buf (Elt Ideal) ((c : Thread nD τ).loc (Pipeline.arrRef spec0 0))) (p : Fin 5000) (k : Fin 64) :
    ((cfg0.win 0).blk t).view.read (Elt Ideal) X (ix2 p k) = (X : S100000x64.Idx → EReal) (ix2 (node t p) k) := by
  rw [View.read_apply]
  refine congrArg X (funext fun a => Fin.ext ?_)
  match a with
  | ⟨0, _⟩ => show win0_0.index t (0 : Fin 2) * 5000 + 1 * p.val = 5000 * t.val + p.val; rw [(idx_facts t).1]; omega
  | ⟨1, _⟩ => show win0_0.index t (1 : Fin 2) * 64 + 1 * k.val = k.val; rw [(idx_facts t).2.1]; omega

/-- So for the array the region finds. -/
theorem rd0 (c : Dev nD) (t : Fin cfg0.N) (p : Fin 5000) (k : Fin 64) :
    (iblk m c 0 t : Vec Ideal S5000x64 .f32) (ix2 p k) = (V m c (Pipeline.arrRef spec0 0) : S100000x64.Idx → EReal) (ix2 (node t p) k) := by
  unfold iblk
  exact blk0 c t (V m c (Pipeline.arrRef spec0 0)) p k

/-- Window 1's block at point `t` is rows 5000·t … 5000·t + 4999 of its array: whatever the array holds (`X`), the block read at a local
    index is the array at block index × block size + the local coordinate. -/
theorem blk1 (c : Dev nD) (t : Fin cfg0.N) (X : Buf (Elt Ideal) ((c : Thread nD τ).loc (Pipeline.arrRef spec0 1))) (p : Fin 5000) (k : Fin 64) :
    ((cfg0.win 1).blk t).view.read (Elt Ideal) X (ix2 p k) = (X : S100000x64.Idx → EReal) (ix2 (node t p) k) := by
  rw [View.read_apply]
  refine congrArg X (funext fun a => Fin.ext ?_)
  match a with
  | ⟨0, _⟩ => show win0_1.index t (0 : Fin 2) * 5000 + 1 * p.val = 5000 * t.val + p.val; rw [(idx_facts t).2.2.1]; omega
  | ⟨1, _⟩ => show win0_1.index t (1 : Fin 2) * 64 + 1 * k.val = k.val; rw [(idx_facts t).2.2.2.1]; omega

/-- So for the array the region finds. -/
theorem rd1 (c : Dev nD) (t : Fin cfg0.N) (p : Fin 5000) (k : Fin 64) :
    (iblk m c 1 t : Vec Ideal S5000x64 .f32) (ix2 p k) = (V m c (Pipeline.arrRef spec0 1) : S100000x64.Idx → EReal) (ix2 (node t p) k) := by
  unfold iblk
  exact blk1 c t (V m c (Pipeline.arrRef spec0 1)) p k

/-- Window 2's block at point `t` is rows 5000·t … 5000·t + 4999 of its one-column array: whatever the array holds (`X`), the block read at a local
    index is the array at block index × block size + the local coordinate. -/
theorem blk2 (c : Dev nD) (t : Fin cfg0.N) (X : Buf (Elt Ideal) ((c : Thread nD τ).loc (Pipeline.arrRef spec0 2))) (p : Fin 5000) :
    ((cfg0.win 2).blk t).view.read (Elt Ideal) X (ix2 p (0 : Fin 1)) = (X : S100000x1.Idx → EReal) (ix2 (node t p) (0 : Fin 1)) := by
  rw [View.read_apply]
  refine congrArg X (funext fun a => Fin.ext ?_)
  match a with
  | ⟨0, _⟩ => show win0_2.index t (0 : Fin 2) * 5000 + 1 * p.val = 5000 * t.val + p.val; rw [(idx_facts t).2.2.2.2.1]; omega
  | ⟨1, _⟩ => show win0_2.index t (1 : Fin 2) * 1 + 1 * 0 = 0; rw [(idx_facts t).2.2.2.2.2.1]

/-- So for the array the region finds. -/
theorem rd2 (c : Dev nD) (t : Fin cfg0.N) (p : Fin 5000) :
    (iblk m c 2 t : Vec Ideal S5000x1 .f32) (ix2 p (0 : Fin 1)) = (V m c (Pipeline.arrRef spec0 2) : S100000x1.Idx → EReal) (ix2 (node t p) (0 : Fin 1)) := by
  unfold iblk
  exact blk2 c t (V m c (Pipeline.arrRef spec0 2)) p

/-- Window 3's block at point `t` is rows 5000·t … 5000·t + 4999 of its array: whatever the array holds (`X`), the block read at a local
    index is the array at block index × block size + the local coordinate. -/
theorem blk3 (c : Dev nD) (t : Fin cfg0.N) (X : Buf (Elt Ideal) ((c : Thread nD τ).loc (Pipeline.arrRef spec0 3))) (p : Fin 5000) (k : Fin 64) :
    ((cfg0.win 3).blk t).view.read (Elt Ideal) X (ix2 p k) = (X : S100000x64.Idx → EReal) (ix2 (node t p) k) := by
  rw [View.read_apply]
  refine congrArg X (funext fun a => Fin.ext ?_)
  match a with
  | ⟨0, _⟩ => show win0_3.index t (0 : Fin 2) * 5000 + 1 * p.val = 5000 * t.val + p.val; rw [(idx_facts t).2.2.2.2.2.2.1]; omega
  | ⟨1, _⟩ => show win0_3.index t (1 : Fin 2) * 64 + 1 * k.val = k.val; rw [(idx_facts t).2.2.2.2.2.2.2.1]; omega

/-- So for the array the region finds. -/
theorem rd3 (c : Dev nD) (t : Fin cfg0.N) (p : Fin 5000) (k : Fin 64) :
    (iblk m c 3 t : Vec Ideal S5000x64 .f32) (ix2 p k) = (V m c (Pipeline.arrRef spec0 3) : S100000x64.Idx → EReal) (ix2 (node t p) k) := by
  unfold iblk
  exact blk3 c t (V m c (Pipeline.arrRef spec0 3)) p k

/-- Window 4's block at point `t` is rows 5000·t … 5000·t + 4999 of its one-column array: whatever the array holds (`X`), the block read at a local
    index is the array at block index × block size + the local coordinate. -/
theorem blk4 (c : Dev nD) (t : Fin cfg0.N) (X : Buf (Elt Ideal) ((c : Thread nD τ).loc (Pipeline.arrRef spec0 4))) (p : Fin 5000) :
    ((cfg0.win 4).blk t).view.read (Elt Ideal) X (ix2 p (0 : Fin 1)) = (X : S100000x1.Idx → EReal) (ix2 (node t p) (0 : Fin 1)) := by
  rw [View.read_apply]
  refine congrArg X (funext fun a => Fin.ext ?_)
  match a with
  | ⟨0, _⟩ => show win0_4.index t (0 : Fin 2) * 5000 + 1 * p.val = 5000 * t.val + p.val; rw [(idx_facts t).2.2.2.2.2.2.2.2.1]; omega
  | ⟨1, _⟩ => show win0_4.index t (1 : Fin 2) * 1 + 1 * 0 = 0; rw [(idx_facts t).2.2.2.2.2.2.2.2.2.1]

/-- So for the array the region finds. -/
theorem rd4 (c : Dev nD) (t : Fin cfg0.N) (p : Fin 5000) :
    (iblk m c 4 t : Vec Ideal S5000x1 .f32) (ix2 p (0 : Fin 1)) = (V m c (Pipeline.arrRef spec0 4) : S100000x1.Idx → EReal) (ix2 (node t p) (0 : Fin 1)) := by
  unfold iblk
  exact blk4 c t (V m c (Pipeline.arrRef spec0 4)) p

/-- Window 5's block at point `t` is its whole [64, 64] array, at every point: whatever the array holds (`X`), the block read at a local
    index is the array at block index × block size + the local coordinate. -/
theorem blk5 (c : Dev nD) (t : Fin cfg0.N) (X : Buf (Elt Ideal) ((c : Thread nD τ).loc (Pipeline.arrRef spec0 5))) (q k : Fin 64) :
    ((cfg0.win 5).blk t).view.read (Elt Ideal) X (ix2 q k) = (X : S64x64.Idx → EReal) (ix2 q k) := by
  rw [View.read_apply]
  refine congrArg X (funext fun a => Fin.ext ?_)
  match a with
  | ⟨0, _⟩ => show win0_5.index t (0 : Fin 2) * 64 + 1 * q.val = q.val; rw [(idx_facts t).2.2.2.2.2.2.2.2.2.2.1]; omega
  | ⟨1, _⟩ => show win0_5.index t (1 : Fin 2) * 64 + 1 * k.val = k.val; rw [(idx_facts t).2.2.2.2.2.2.2.2.2.2.2.1]; omega

/-- So for the array the region finds. -/
theorem rd5 (c : Dev nD) (t : Fin cfg0.N) (q k : Fin 64) :
    (iblk m c 5 t : Vec Ideal S64x64 .f32) (ix2 q k) = (V m c (Pipeline.arrRef spec0 5) : S64x64.Idx → EReal) (ix2 q k) := by
  unfold iblk
  exact blk5 c t (V m c (Pipeline.arrRef spec0 5)) q k

/-- Window 6's block at point `t` is its whole [64, 64] array, at every point: whatever the array holds (`X`), the block read at a local
    index is the array at block index × block size + the local coordinate. -/
theorem blk6 (c : Dev nD) (t : Fin cfg0.N) (X : Buf (Elt Ideal) ((c : Thread nD τ).loc (Pipeline.arrRef spec0 6))) (q k : Fin 64) :
    ((cfg0.win 6).blk t).view.read (Elt Ideal) X (ix2 q k) = (X : S64x64.Idx → EReal) (ix2 q k) := by
  rw [View.read_apply]
  refine congrArg X (funext fun a => Fin.ext ?_)
  match a with
  | ⟨0, _⟩ => show win0_6.index t (0 : Fin 2) * 64 + 1 * q.val = q.val; rw [(idx_facts t).2.2.2.2.2.2.2.2.2.2.2.2.1]; omega
  | ⟨1, _⟩ => show win0_6.index t (1 : Fin 2) * 64 + 1 * k.val = k.val; rw [(idx_facts t).2.2.2.2.2.2.2.2.2.2.2.2.2.1]; omega

/-- So for the array the region finds. -/
theorem rd6 (c : Dev nD) (t : Fin cfg0.N) (q k : Fin 64) :
    (iblk m c 6 t : Vec Ideal S64x64 .f32) (ix2 q k) = (V m c (Pipeline.arrRef spec0 6) : S64x64.Idx → EReal) (ix2 q k) := by
  unfold iblk
  exact blk6 c t (V m c (Pipeline.arrRef spec0 6)) q k

/-- Window 7's block at point `t` is its whole [1, 64] array, at every point: whatever the array holds (`X`), the block read at a local
    index is the array at block index × block size + the local coordinate. -/
theorem blk7 (c : Dev nD) (t : Fin cfg0.N) (X : Buf (Elt Ideal) ((c : Thread nD τ).loc (Pipeline.arrRef spec0 7))) (q : Fin 64) :
    ((cfg0.win 7).blk t).view.read (Elt Ideal) X (ix2 (0 : Fin 1) q) = (X : S1x64.Idx → EReal) (ix2 (0 : Fin 1) q) := by
  rw [View.read_apply]
  refine congrArg X (funext fun a => Fin.ext ?_)
  match a with
  | ⟨0, _⟩ => show win0_7.index t (0 : Fin 2) * 1 + 1 * 0 = 0; rw [(idx_facts t).2.2.2.2.2.2.2.2.2.2.2.2.2.2.1]
  | ⟨1, _⟩ => show win0_7.index t (1 : Fin 2) * 64 + 1 * q.val = q.val; rw [(idx_facts t).2.2.2.2.2.2.2.2.2.2.2.2.2.2.2.1]; omega

/-- So for the array the region finds. -/
theorem rd7 (c : Dev nD) (t : Fin cfg0.N) (q : Fin 64) :
    (iblk m c 7 t : Vec Ideal S1x64 .f32) (ix2 (0 : Fin 1) q) = (V m c (Pipeline.arrRef spec0 7) : S1x64.Idx → EReal) (ix2 (0 : Fin 1) q) := by
  unfold iblk
  exact blk7 c t (V m c (Pipeline.arrRef spec0 7)) q

/-- Window 8's block at point `t` is its whole [64, 64] array, at every point: whatever the array holds (`X`), the block read at a local
    index is the array at block index × block size + the local coordinate. -/
theorem blk8 (c : Dev nD) (t : Fin cfg0.N) (X : Buf (Elt Ideal) ((c : Thread nD τ).loc (Pipeline.arrRef spec0 8))) (q k : Fin 64) :
    ((cfg0.win 8).blk t).view.read (Elt Ideal) X (ix2 q k) = (X : S64x64.Idx → EReal) (ix2 q k) := by
  rw [View.read_apply]
  refine congrArg X (funext fun a => Fin.ext ?_)
  match a with
  | ⟨0, _⟩ => show win0_8.index t (0 : Fin 2) * 64 + 1 * q.val = q.val; rw [(idx_facts t).2.2.2.2.2.2.2.2.2.2.2.2.2.2.2.2.1]; omega
  | ⟨1, _⟩ => show win0_8.index t (1 : Fin 2) * 64 + 1 * k.val = k.val; rw [(idx_facts t).2.2.2.2.2.2.2.2.2.2.2.2.2.2.2.2.2.1]; omega

/-- So for the array the region finds. -/
theorem rd8 (c : Dev nD) (t : Fin cfg0.N) (q k : Fin 64) :
    (iblk m c 8 t : Vec Ideal S64x64 .f32) (ix2 q k) = (V m c (Pipeline.arrRef spec0 8) : S64x64.Idx → EReal) (ix2 q k) := by
  unfold iblk
  exact blk8 c t (V m c (Pipeline.arrRef spec0 8)) q k

/-- Window 9's block at point `t` is its whole [64, 64] array, at every point: whatever the array holds (`X`), the block read at a local
    index is the array at block index × block size + the local coordinate. -/
theorem blk9 (c : Dev nD) (t : Fin cfg0.N) (X : Buf (Elt Ideal) ((c : Thread nD τ).loc (Pipeline.arrRef spec0 9))) (q k : Fin 64) :
    ((cfg0.win 9).blk t).view.read (Elt Ideal) X (ix2 q k) = (X : S64x64.Idx → EReal) (ix2 q k) := by
  rw [View.read_apply]
  refine congrArg X (funext fun a => Fin.ext ?_)
  match a with
  | ⟨0, _⟩ => show win0_9.index t (0 : Fin 2) * 64 + 1 * q.val = q.val; rw [(idx_facts t).2.2.2.2.2.2.2.2.2.2.2.2.2.2.2.2.2.2.1]; omega
  | ⟨1, _⟩ => show win0_9.index t (1 : Fin 2) * 64 + 1 * k.val = k.val; rw [(idx_facts t).2.2.2.2.2.2.2.2.2.2.2.2.2.2.2.2.2.2.2.1]; omega

/-- So for the array the region finds. -/
theorem rd9 (c : Dev nD) (t : Fin cfg0.N) (q k : Fin 64) :
    (iblk m c 9 t : Vec Ideal S64x64 .f32) (ix2 q k) = (V m c (Pipeline.arrRef spec0 9) : S64x64.Idx → EReal) (ix2 q k) := by
  unfold iblk
  exact blk9 c t (V m c (Pipeline.arrRef spec0 9)) q k

/-- Window 10's block at point `t` is its whole [1, 64] array, at every point: whatever the array holds (`X`), the block read at a local
    index is the array at block index × block size + the local coordinate. -/
theorem blk10 (c : Dev nD) (t : Fin cfg0.N) (X : Buf (Elt Ideal) ((c : Thread nD τ).loc (Pipeline.arrRef spec0 10))) (q : Fin 64) :
    ((cfg0.win 10).blk t).view.read (Elt Ideal) X (ix2 (0 : Fin 1) q) = (X : S1x64.Idx → EReal) (ix2 (0 : Fin 1) q) := by
  rw [View.read_apply]
  refine congrArg X (funext fun a => Fin.ext ?_)
  match a with
  | ⟨0, _⟩ => show win0_10.index t (0 : Fin 2) * 1 + 1 * 0 = 0; rw [(idx_facts t).2.2.2.2.2.2.2.2.2.2.2.2.2.2.2.2.2.2.2.2.1]
  | ⟨1, _⟩ => show win0_10.index t (1 : Fin 2) * 64 + 1 * q.val = q.val; rw [(idx_facts t).2.2.2.2.2.2.2.2.2.2.2.2.2.2.2.2.2.2.2.2.2.1]; omega

/-- So for the array the region finds. -/
theorem rd10 (c : Dev nD) (t : Fin cfg0.N) (q : Fin 64) :
    (iblk m c 10 t : Vec Ideal S1x64 .f32) (ix2 (0 : Fin 1) q) = (V m c (Pipeline.arrRef spec0 10) : S1x64.Idx → EReal) (ix2 (0 : Fin 1) q) := by
  unfold iblk
  exact blk10 c t (V m c (Pipeline.arrRef spec0 10)) q

/-- The pos half of point `t`'s block at (p, q) is the specification's pos half at node 5000·t + p: every load is
    the array's entry the window's block names, and the bias joins the sum last here, first there. -/
theorem half_pos_eq (c : Dev nD) (t : Fin cfg0.N) (p : Fin 5000) (q : Fin 64) :
    blkHalf (iblk m c 0 t) (iblk m c 1 t) (iblk m c 2 t) (iblk m c 5 t) (iblk m c 6 t) (iblk m c 7 t) p q
      = half (V m c (Pipeline.arrRef spec0 0)) (V m c (Pipeline.arrRef spec0 1)) (col (V m c (Pipeline.arrRef spec0 2))) (V m c (Pipeline.arrRef spec0 5)) (V m c (Pipeline.arrRef spec0 6)) (row (V m c (Pipeline.arrRef spec0 7))) (node t p) q := by
  refine Eq.trans ?_ (half_assoc _ _ _ _ _ _ _ _)
  unfold blkHalf mean
  refine congrArg₂ (· + ·) (congrArg₂ (· + ·) (Finset.sum_congr rfl fun k _ => ?_) (Finset.sum_congr rfl fun k _ => ?_)) ?_
  · rw [rd1 m c t p k, rd2 m c t p, rd5 m c t q k, col_apply]
  · rw [rd0 m c t p k, rd6 m c t q k]
  · rw [rd7 m c t q, row_apply]

/-- The neg half of point `t`'s block at (p, q) is the specification's neg half at node 5000·t + p: every load is
    the array's entry the window's block names, and the bias joins the sum last here, first there. -/
theorem half_neg_eq (c : Dev nD) (t : Fin cfg0.N) (p : Fin 5000) (q : Fin 64) :
    blkHalf (iblk m c 0 t) (iblk m c 3 t) (iblk m c 4 t) (iblk m c 8 t) (iblk m c 9 t) (iblk m c 10 t) p q
      = half (V m c (Pipeline.arrRef spec0 0)) (V m c (Pipeline.arrRef spec0 3)) (col (V m c (Pipeline.arrRef spec0 4))) (V m c (Pipeline.arrRef spec0 8)) (V m c (Pipeline.arrRef spec0 9)) (row (V m c (Pipeline.arrRef spec0 10))) (node t p) q := by
  refine Eq.trans ?_ (half_assoc _ _ _ _ _ _ _ _)
  unfold blkHalf mean
  refine congrArg₂ (· + ·) (congrArg₂ (· + ·) (Finset.sum_congr rfl fun k _ => ?_) (Finset.sum_congr rfl fun k _ => ?_)) ?_
  · rw [rd3 m c t p k, rd4 m c t p, rd8 m c t q k, col_apply]
  · rw [rd0 m c t p k, rd9 m c t q k]
  · rw [rd10 m c t q, row_apply]

/-- The whole output as the specification of the arrays the region finds. -/
def whole (c : Dev nD) : Mat 100000 128 :=
  result (V m c (Pipeline.arrRef spec0 0)) (V m c (Pipeline.arrRef spec0 1)) (col (V m c (Pipeline.arrRef spec0 2))) (V m c (Pipeline.arrRef spec0 3)) (col (V m c (Pipeline.arrRef spec0 4)))
    (V m c (Pipeline.arrRef spec0 5)) (V m c (Pipeline.arrRef spec0 6)) (row (V m c (Pipeline.arrRef spec0 7))) (V m c (Pipeline.arrRef spec0 8)) (V m c (Pipeline.arrRef spec0 9)) (row (V m c (Pipeline.arrRef spec0 10)))

/-- WHAT POINT `t` WRITES BACK is block `t` of `whole`. -/
theorem flushed_eq (c : Dev nD) (t : Fin cfg0.N) :
    (dats m 0 c).flushed 11 t = ((cfg0.win 11).blk t).view.read (Elt Ideal) (whole m c) := by
  rw [flushed11]
  unfold out0_11
  rw [View.canon_unit_zero hz]
  simp only [View.ld_unit_zero (S := S5000x64) hz, View.ld_unit_zero (S := S5000x1) hz, View.ld_unit_zero (S := S64x64) hz, View.ld_unit_zero (S := S1x64) hz]
  funext y
  obtain ⟨p, cc, rfl⟩ : ∃ (p : Fin 5000) (cc : Fin 128), y = ix2 p cc := ⟨y 0, y 1, eq_ix2 y⟩
  -- reading the whole array through the block's view is the array at the embedded index
  have hread : ∀ (G : S100000x128.Idx → EReal), ((cfg0.win 11).blk t).view.read (Elt Ideal) G (ix2 p cc) = G (((cfg0.win 11).blk t).view.emb (ix2 p cc)) := fun G => rfl
  rw [hread]
  have e0 : (((cfg0.win 11).blk t).view.emb (ix2 p cc) 0).val = (node t p).val := by
    show win0_11.index t (0 : Fin 2) * 5000 + 1 * p.val = 5000 * t.val + p.val; rw [(idx_facts t).2.2.2.2.2.2.2.2.2.2.2.2.2.2.2.2.2.2.2.2.2.2.1]; omega
  have e1 : (((cfg0.win 11).blk t).view.emb (ix2 p cc) 1).val = cc.val := by
    show win0_11.index t (1 : Fin 2) * 128 + 1 * cc.val = cc.val; rw [(idx_facts t).2.2.2.2.2.2.2.2.2.2.2.2.2.2.2.2.2.2.2.2.2.2.2]; omega
  -- the window is never cut short: the written part of the staging buffer is all of it
  have hcut : ∀ (X : S5000x128.Idx → EReal), (cfg0.win 11).cut (grid0.coords t) X (ix2 p cc) = X (ix2 p cc) := fun X => rfl
  unfold whole
  by_cases hc : cc.val < 64
  · rw [result_left _ _ _ _ _ _ _ _ _ _ _ _ (node t p) (⟨cc.val, hc⟩ : Fin 64) e0 e1, ← half_pos_eq m c t p (⟨cc.val, hc⟩ : Fin 64)]
    rw [hcut, pay_left (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p cc) p (⟨cc.val, hc⟩ : Fin 64) rfl rfl]
  · have hc' : cc.val - 64 < 64 := by have := cc.isLt; omega
    rw [result_right _ _ _ _ _ _ _ _ _ _ _ _ (node t p) (⟨cc.val - 64, hc'⟩ : Fin 64) e0 (e1.trans (by show cc.val = cc.val - 64 + 64; omega)), ← half_neg_eq m c t p (⟨cc.val - 64, hc'⟩ : Fin 64)]
    rw [hcut, pay_right (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p cc) p (⟨cc.val - 64, hc'⟩ : Fin 64) rfl (by show cc.val = cc.val - 64 + 64; omega)]

/-- An index of the output array is in point `t`'s block iff each coordinate is in the block's range on its axis. -/
theorem mem_blk (t : Fin cfg0.N) (i : S100000x128.Idx) :
    i ∈ ((cfg0.win 11).blk t).view.set ↔ ∀ a : Fin 2, win0_11.index t a * S5000x128.size a ≤ (i a).val ∧ (i a).val < win0_11.index t a * S5000x128.size a + S5000x128.size a := by
  show i ∈ ((View.whole main_v40).slice (win0_11.rect t)).set ↔ _
  rw [View.set_slice_whole, Rect.mem_set_unit]
  exact Iff.rfl

/-- The 20 blocks tile the output: row r is in the block of point r / 5000. -/
theorem cover (i : S100000x128.Idx) : ∃ t : Fin cfg0.N, (cfg0.win 11).flush t = true ∧ i ∈ ((cfg0.win 11).blk t).view.set := by
  have hi0 : (i 0).val < 100000 := idx2_lt0 i
  have hi1 : (i 1).val < 128 := idx2_lt1 i
  have hN : cfg0.N = 20 := N_0
  obtain ⟨t, ht⟩ : ∃ t : Fin cfg0.N, t.val = (i 0).val / 5000 := ⟨⟨(i 0).val / 5000, by rw [hN]; omega⟩, rfl⟩
  refine ⟨t, flush0_11 t, ?_⟩
  rw [mem_blk]
  intro a
  match a with
  | ⟨0, _⟩ => show win0_11.index t (0 : Fin 2) * 5000 ≤ (i 0).val ∧ (i 0).val < win0_11.index t (0 : Fin 2) * 5000 + 5000; rw [(idx_facts t).2.2.2.2.2.2.2.2.2.2.2.2.2.2.2.2.2.2.2.2.2.2.1, ht]; omega
  | ⟨1, _⟩ => show win0_11.index t (1 : Fin 2) * 128 ≤ (i 1).val ∧ (i 1).val < win0_11.index t (1 : Fin 2) * 128 + 128; rw [(idx_facts t).2.2.2.2.2.2.2.2.2.2.2.2.2.2.2.2.2.2.2.2.2.2.2]; omega

/-- THE OUTPUT ARRAY after the run is `whole`. -/
theorem final (c : Dev nD) : (dats m 0 c).arrAt 11 cfg0.N = whole m c :=
  (dats m 0 c).arrAt_eq_of_cover 11 (whole m c) (fun t _ => flushed_eq m c t) cover

end Cert.KernelIdeal.Blocks

end
-- ==== Proof.Entry.lean ====
/-
  The arrays the region finds.

  Before the kernel launches, the program computes on the host, for each edge sign, the segment sum of the
  neighbours' features and the segment count, and reshapes the count to a [100000, 1] column and each bias to a
  [1, 64] row. The segment sums and counts are the SAME host operations of the same arguments as the reference's
  (a gather and two scatter-adds, never opened here: the two programs' terms are compared as they stand); the
  column read at (r, 0) is the count at r, and the row read at (0, j) is the bias at j.
-/
import proofs.«164595_j57286273794081_2_alg».proof.Proof.Gen.KernelIdeal.Frame
import proofs.«164595_j57286273794081_2_alg».proof.Proof.Gen.ReferenceIdeal.Read
import proofs.«164595_j57286273794081_2_alg».proof.Proof.Spec
import Idealize.ShloMosaic.Lib.StableHlo.Run
import Idealize.ShloMosaic.Lib.ValueLayout

noncomputable section

open Idealize.ShloMosaic Idealize.ShloMosaic.TcCoe Idealize.SL.Sem Idealize.ShloMosaic.ValueIdx Idealize.ShloMosaic.StableHlo

namespace Cert.KernelIdeal.Entry

open Cert.KernelIdeal Cert.KernelIdeal.Gen Cert.SignedConv

variable (m : (ℓ : Loc nD τ sig) → Buf (Elt Ideal) ℓ)

/-- The positive segment sum, as the region finds it, is the reference's stage of the same arguments. -/
theorem sum_pos (c : Dev nD) : (V m c main_v13 : S100000x64.Idx → EReal)
    = Cert.ReferenceIdeal.Read.val_main_v13 (F := Ideal) (m ((c : Thread nD τ).loc main_arg0)) (m ((c : Thread nD τ).loc main_arg1)) := by
  dsimp only [Gen.V, Gen.hostOps0]
  after_results_simp
  rfl

/-- The negative segment sum likewise. -/
theorem sum_neg (c : Dev nD) : (V m c main_v32 : S100000x64.Idx → EReal)
    = Cert.ReferenceIdeal.Read.val_main_v44 (F := Ideal) (m ((c : Thread nD τ).loc main_arg0)) (m ((c : Thread nD τ).loc main_arg2)) := by
  dsimp only [Gen.V, Gen.hostOps0]
  after_results_simp
  rfl

/-- The positive count column is the reference's count, reshaped. -/
theorem cnt_pos_cast (c : Dev nD) : (V m c main_v18 : S100000x1.Idx → EReal)
    = shapeCast S100000x1 (Cert.ReferenceIdeal.Read.val_main_v17 (F := Ideal) (m ((c : Thread nD τ).loc main_arg1))) Gen.shapeCasts_S100000_S100000x1 := by
  dsimp only [Gen.V, Gen.hostOps0]
  after_results_simp
  rfl

/-- The negative count column likewise. -/
theorem cnt_neg_cast (c : Dev nD) : (V m c main_v37 : S100000x1.Idx → EReal)
    = shapeCast S100000x1 (Cert.ReferenceIdeal.Read.val_main_v48 (F := Ideal) (m ((c : Thread nD τ).loc main_arg2))) Gen.shapeCasts_S100000_S100000x1 := by
  dsimp only [Gen.V, Gen.hostOps0]
  after_results_simp
  rfl

/-- A [100000] vector reshaped to a column reads, at (r, 0), the vector at r. -/
theorem col_shapeCast (v : S100000.Idx → EReal) (h : S100000.ShapeCasts S100000x1) : col (shapeCast S100000x1 v h) = v := by
  funext i
  unfold col
  refine (shapeCast_apply v h (ix2 (i 0) (0 : Fin 1)) i ?_)
  rw [Shape.rowMajor_val_two, Shape.rowMajor_val_one]
  show (i 0).val = (i 0).val * 1 + 0
  omega

theorem cnt_pos (c : Dev nD) : col (V m c main_v18) = Cert.ReferenceIdeal.Read.val_main_v17 (F := Ideal) (m ((c : Thread nD τ).loc main_arg1)) := by
  rw [cnt_pos_cast]; exact col_shapeCast _ _

theorem cnt_neg (c : Dev nD) : col (V m c main_v37) = Cert.ReferenceIdeal.Read.val_main_v48 (F := Ideal) (m ((c : Thread nD τ).loc main_arg2)) := by
  rw [cnt_neg_cast]; exact col_shapeCast _ _

/-- A [64] vector reshaped to a row reads, at (0, j), the vector at j. -/
theorem row_shapeCast (v : S64.Idx → EReal) (h : S64.ShapeCasts S1x64) : row (shapeCast S1x64 v h) = v := by
  funext i
  unfold row
  exact (shapeCast_a_1a_apply v h (0 : Fin 1) (i 0)).trans (congrArg v (eq_ix1 i).symm)

/-- The positive bias row is the bias argument, reshaped. -/
theorem bias_pos (c : Dev nD) : row (V m c main_v38) = m ((c : Thread nD τ).loc main_arg5) := by
  have e : (V m c main_v38 : S1x64.Idx → EReal) = shapeCast S1x64 (m ((c : Thread nD τ).loc main_arg5)) Gen.shapeCasts_S64_S1x64 := by
    dsimp only [Gen.V, Gen.hostOps0]
    after_results_simp
    rfl
  rw [e]; exact row_shapeCast _ _

/-- The negative bias row likewise. -/
theorem bias_neg (c : Dev nD) : row (V m c main_v39) = m ((c : Thread nD τ).loc main_arg8) := by
  have e : (V m c main_v39 : S1x64.Idx → EReal) = shapeCast S1x64 (m ((c : Thread nD τ).loc main_arg8)) Gen.shapeCasts_S64_S1x64 := by
    dsimp only [Gen.V, Gen.hostOps0]
    after_results_simp
    rfl
  rw [e]; exact row_shapeCast _ _

end Cert.KernelIdeal.Entry

end
-- ==== Proof.Reference.lean ====
/-
  The reference, read at an index, is the specification.

  The reference computes, per edge sign, the segment sum `S` and count `C` (a gather and two scatter-adds this file
  never opens: they are carried as the opaque stages `val_main_v13` / `v17` and `v44` / `v48`), divides `S` by
  `max(C, 1)` broadcast along the features, multiplies by the transposed weights with `dot_general`, adds
  `x · Wccᵀ + b`, and concatenates the two halves along the columns. Read one operation at a time (the generated
  stage lemmas) that is `Cert.SignedConv.result` of the segment sums and the arguments.
-/
import proofs.«164595_j57286273794081_2_alg».proof.Proof.Gen.ReferenceIdeal.Read
import proofs.«164595_j57286273794081_2_alg».proof.Proof.Spec
import Idealize.ShloMosaic.Lib.Pipeline.Value
import Idealize.ShloMosaic.Lib.ValueIdx

noncomputable section

open scoped BigOperators

namespace Cert.ReferenceIdeal.RefValue

open Cert.ReferenceIdeal Cert.ReferenceIdeal.Read Idealize.ShloMosaic Idealize.ShloMosaic.ValueIdx Cert.SignedConv

/-- The reference's pos half at (r, q): its two `dot_general`s as sums over the features, the mean's divisor broadcast
    from the clamped count, the bias broadcast along the rows — the specification's `half` of the segment sums. -/
theorem half_pos (x0 : (⟨S100000x64, .f32⟩ : BufTy).Contents (Elt Ideal)) (xe : (⟨S2x1600000, .i32⟩ : BufTy).Contents (Elt Ideal))
    (w wc : (⟨S64x64, .f32⟩ : BufTy).Contents (Elt Ideal)) (b : (⟨S64, .f32⟩ : BufTy).Contents (Elt Ideal)) (r : Fin 100000) (q : Fin 64) :
    val_main_v30 (F := Ideal) x0 xe w wc b (ix2 r q)
      = half x0 (val_main_v13 (F := Ideal) x0 xe) (val_main_v17 (F := Ideal) xe) w wc b r q := by
  have e1 : ∀ k : Fin 64, lidx_main_v24 (ix2 r q) k = ix2 r k := fun k => funext fun a => Fin.ext (by
    match a with | ⟨0, _⟩ => rfl | ⟨1, _⟩ => rfl)
  have e2 : ∀ k : Fin 64, idx_main_v23 (ridx_main_v24 (ix2 r q) k) = ix2 q k := fun k => funext fun a => Fin.ext (by
    match a with | ⟨0, _⟩ => rfl | ⟨1, _⟩ => rfl)
  have e3 : ∀ k : Fin 64, idx_main_v20 (idx_main_v21 (ix2 r k)) = ix1 r := fun k => funext fun a => Fin.ext (by
    match a with | ⟨0, _⟩ => rfl)
  have e4 : ∀ k : Fin 64, lidx_main_v26 (ix2 r q) k = ix2 r k := fun k => funext fun a => Fin.ext (by
    match a with | ⟨0, _⟩ => rfl | ⟨1, _⟩ => rfl)
  have e5 : ∀ k : Fin 64, idx_main_v25 (ridx_main_v26 (ix2 r q) k) = ix2 q k := fun k => funext fun a => Fin.ext (by
    match a with | ⟨0, _⟩ => rfl | ⟨1, _⟩ => rfl)
  have e6 : idx_main_v27 (idx_main_v28 (ix2 r q)) = ix1 q := funext fun a => Fin.ext (by
    match a with | ⟨0, _⟩ => rfl)
  rw [val_main_v30_apply, val_main_v24_apply, val_main_v29_apply, val_main_v26_apply, val_main_v28_apply, val_main_v27_apply, e6]
  unfold half
  simp only [Ideal.addf_def]
  refine congrArg₂ (· + ·) (Finset.sum_congr rfl fun k _ => ?_) (congrArg₂ (· + ·) (Finset.sum_congr rfl fun k _ => ?_) rfl)
  · rw [val_main_v22_apply, val_main_v23_apply, val_main_v21_apply, val_main_v20_apply, val_main_v19_apply, val_main_v18_apply, e1, e2, e3]
    rfl
  · rw [val_main_v25_apply, e4, e5]

/-- The reference's neg half at (r, q): its two `dot_general`s as sums over the features, the mean's divisor broadcast
    from the clamped count, the bias broadcast along the rows — the specification's `half` of the segment sums. -/
theorem half_neg (x0 : (⟨S100000x64, .f32⟩ : BufTy).Contents (Elt Ideal)) (xe : (⟨S2x1600000, .i32⟩ : BufTy).Contents (Elt Ideal))
    (w wc : (⟨S64x64, .f32⟩ : BufTy).Contents (Elt Ideal)) (b : (⟨S64, .f32⟩ : BufTy).Contents (Elt Ideal)) (r : Fin 100000) (q : Fin 64) :
    val_main_v61 (F := Ideal) x0 xe w wc b (ix2 r q)
      = half x0 (val_main_v44 (F := Ideal) x0 xe) (val_main_v48 (F := Ideal) xe) w wc b r q := by
  have e1 : ∀ k : Fin 64, lidx_main_v55 (ix2 r q) k = ix2 r k := fun k => funext fun a => Fin.ext (by
    match a with | ⟨0, _⟩ => rfl | ⟨1, _⟩ => rfl)
  have e2 : ∀ k : Fin 64, idx_main_v54 (ridx_main_v55 (ix2 r q) k) = ix2 q k := fun k => funext fun a => Fin.ext (by
    match a with | ⟨0, _⟩ => rfl | ⟨1, _⟩ => rfl)
  have e3 : ∀ k : Fin 64, idx_main_v51 (idx_main_v52 (ix2 r k)) = ix1 r := fun k => funext fun a => Fin.ext (by
    match a with | ⟨0, _⟩ => rfl)
  have e4 : ∀ k : Fin 64, lidx_main_v57 (ix2 r q) k = ix2 r k := fun k => funext fun a => Fin.ext (by
    match a with | ⟨0, _⟩ => rfl | ⟨1, _⟩ => rfl)
  have e5 : ∀ k : Fin 64, idx_main_v56 (ridx_main_v57 (ix2 r q) k) = ix2 q k := fun k => funext fun a => Fin.ext (by
    match a with | ⟨0, _⟩ => rfl | ⟨1, _⟩ => rfl)
  have e6 : idx_main_v58 (idx_main_v59 (ix2 r q)) = ix1 q := funext fun a => Fin.ext (by
    match a with | ⟨0, _⟩ => rfl)
  rw [val_main_v61_apply, val_main_v55_apply, val_main_v60_apply, val_main_v57_apply, val_main_v59_apply, val_main_v58_apply, e6]
  unfold half
  simp only [Ideal.addf_def]
  refine congrArg₂ (· + ·) (Finset.sum_congr rfl fun k _ => ?_) (congrArg₂ (· + ·) (Finset.sum_congr rfl fun k _ => ?_) rfl)
  · rw [val_main_v53_apply, val_main_v54_apply, val_main_v52_apply, val_main_v51_apply, val_main_v50_apply, val_main_v49_apply, e1, e2, e3]
    rfl
  · rw [val_main_v56_apply, e4, e5]

/-- The reference's result is the specification's, of the segment sums and counts it computes and the arguments. -/
theorem result_eq (x0 : (⟨S100000x64, .f32⟩ : BufTy).Contents (Elt Ideal)) (x1 x2 : (⟨S2x1600000, .i32⟩ : BufTy).Contents (Elt Ideal))
    (x3 x4 : (⟨S64x64, .f32⟩ : BufTy).Contents (Elt Ideal)) (x5 : (⟨S64, .f32⟩ : BufTy).Contents (Elt Ideal))
    (x6 x7 : (⟨S64x64, .f32⟩ : BufTy).Contents (Elt Ideal)) (x8 : (⟨S64, .f32⟩ : BufTy).Contents (Elt Ideal)) :
    val_main_v62 (F := Ideal) x0 x1 x2 x3 x4 x5 x6 x7 x8
      = result x0 (val_main_v13 (F := Ideal) x0 x1) (val_main_v17 (F := Ideal) x1) (val_main_v44 (F := Ideal) x0 x2) (val_main_v48 (F := Ideal) x2)
          x3 x4 x5 x6 x7 x8 := by
  funext i
  obtain ⟨r, c, rfl⟩ : ∃ (r : Fin 100000) (c : Fin 128), i = ix2 r c := ⟨i 0, i 1, eq_ix2 i⟩
  unfold val_main_v62
  by_cases hc : c.val < 64
  · rw [result_left _ _ _ _ _ _ _ _ _ _ _ (ix2 r c) r (⟨c.val, hc⟩ : Fin 64) rfl rfl, ← half_pos]
    exact concatenate_pair_apply_left (t := S100000x128) (s₁ := S100000x64) (s₂ := S100000x64) (1 : Fin 2) _ _ Cert.ReferenceIdeal.Gen.concatenates_S100000x64_S100000x64_S100000x128_d1 (ix2 r c) rfl (ix2 r (⟨c.val, hc⟩ : Fin 64))
      (fun b => match b with | ⟨0, _⟩ => rfl | ⟨1, _⟩ => rfl)
  · have hc' : c.val - 64 < 64 := by have := c.isLt; omega
    rw [result_right _ _ _ _ _ _ _ _ _ _ _ (ix2 r c) r (⟨c.val - 64, hc'⟩ : Fin 64) rfl (by show c.val = c.val - 64 + 64; omega), ← half_neg]
    exact concatenate_pair_apply_right (t := S100000x128) (s₁ := S100000x64) (s₂ := S100000x64) (1 : Fin 2) _ _ Cert.ReferenceIdeal.Gen.concatenates_S100000x64_S100000x64_S100000x128_d1 (ix2 r c) rfl rfl (ix2 r (⟨c.val - 64, hc'⟩ : Fin 64))
      (fun b hb => match b with | ⟨0, _⟩ => rfl | ⟨1, _⟩ => absurd rfl hb)
      (by show c.val - 64 + 64 = c.val; omega)

end Cert.ReferenceIdeal.RefValue

end
-- ==== Proof.lean ====
/-
  Signed graph convolution (mean aggregation over positive and negative in-neighbours, two linear maps per sign, the
  two halves side by side): the tiled kernel against its plain reference, equal on the extended reals.

  Both programs compute, for each edge sign, the segment sum `S` of the neighbours' features and the segment count `C`
  by the SAME host operations of the same arguments. The kernel then takes 20 blocks of 5000 nodes; on a block it
  forms `S / max(C, 1)`, multiplies it and the nodes' own features by the transposed weight matrices on the matrix unit
  (into zero accumulators, through a narrower float format that is the identity on the extended reals), adds the bias
  row, and writes the positive half beside the negative half. The reference does the same on the whole arrays with
  `dot_general`. Entry (r, j) of a half is, in both,

      Σ_k (S[r,k] / max(C[r], 1)) · W[j,k]  +  Σ_k x[r,k] · Wc[j,k]  +  b[j],

  the kernel adding the bias last and the reference adding it to the second product first: the one law that joins the
  two sides is the associativity of addition, which holds on all of the extended reals, so finiteness of the inputs is
  never used. The modules: `Spec` (the function), `Body` (the kernel body's arithmetic at an index), `Blocks` (the 20
  blocks tile the output with that function), `Entry` (the arrays the kernel's launch finds are the reference's
  stages), `Reference` (the reference read at an index is the function).
-/
import proofs.«164595_j57286273794081_2_alg».proof.Defs
import proofs.«164595_j57286273794081_2_alg».proof.Proof.Gen.Kernel
import proofs.«164595_j57286273794081_2_alg».proof.Proof.Gen.Kernel.Skeleton
import proofs.«164595_j57286273794081_2_alg».proof.Proof.Gen.Kernel.Launch
import proofs.«164595_j57286273794081_2_alg».proof.Proof.Gen.Kernel.Points
import proofs.«164595_j57286273794081_2_alg».proof.Proof.Gen.Kernel.Frame
import proofs.«164595_j57286273794081_2_alg».proof.Proof.Gen.KernelIdeal
import proofs.«164595_j57286273794081_2_alg».proof.Proof.Gen.KernelIdeal.Skeleton
import proofs.«164595_j57286273794081_2_alg».proof.Proof.Gen.KernelIdeal.Launch
import proofs.«164595_j57286273794081_2_alg».proof.Proof.Gen.KernelIdeal.Points
import proofs.«164595_j57286273794081_2_alg».proof.Proof.Gen.KernelIdeal.Frame
import proofs.«164595_j57286273794081_2_alg».proof.Proof.Gen.ReferenceIdeal
import proofs.«164595_j57286273794081_2_alg».proof.Proof.Gen.Pre_finite_inputs
import proofs.«164595_j57286273794081_2_alg».proof.Proof.Gen.KernelIdeal.Value
import proofs.«164595_j57286273794081_2_alg».proof.Proof.Gen.ReferenceIdeal.Run
import proofs.«164595_j57286273794081_2_alg».proof.Proof.Gen.ReferenceIdeal.Read
import proofs.«164595_j57286273794081_2_alg».proof.Proof.Spec
import proofs.«164595_j57286273794081_2_alg».proof.Proof.Body
import proofs.«164595_j57286273794081_2_alg».proof.Proof.Blocks
import proofs.«164595_j57286273794081_2_alg».proof.Proof.Entry
import proofs.«164595_j57286273794081_2_alg».proof.Proof.Reference
import Idealize.ShloMosaic.Adequacy
import Idealize.ShloMosaic.Init

noncomputable section

namespace Cert.Proof

open Idealize.ShloMosaic Idealize.ShloMosaic.TcCoe Idealize.SL.Sem

/-- The word-level kernel runs, and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs too: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten to read the kernel on the extended reals. -/
theorem preserves : Cert.preserves_Kernel_KernelIdeal := trivial

/-- The kernel's run with its output array named: the specification of the arrays its launch finds. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ fun r =>
      ∀ c : Dev Cert.KernelIdeal.nD,
      r.2.mem ((c : Thread Cert.KernelIdeal.nD Cert.KernelIdeal.τ).loc Cert.KernelIdeal.main_v40) = Cert.KernelIdeal.Blocks.whole m c
      ∧ r.2.mem ((c : Thread Cert.KernelIdeal.nD Cert.KernelIdeal.τ).loc Cert.KernelIdeal.main_arg0) = m ((c : Thread Cert.KernelIdeal.nD Cert.KernelIdeal.τ).loc Cert.KernelIdeal.main_arg0)
      ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
      ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
      ∧ r.2.mem ((c : Thread Cert.KernelIdeal.nD Cert.KernelIdeal.τ).loc Cert.KernelIdeal.main_arg3) = m ((c : Thread Cert.KernelIdeal.nD Cert.KernelIdeal.τ).loc Cert.KernelIdeal.main_arg3)
      ∧ r.2.mem ((c : Thread Cert.KernelIdeal.nD Cert.KernelIdeal.τ).loc Cert.KernelIdeal.main_arg4) = m ((c : Thread Cert.KernelIdeal.nD Cert.KernelIdeal.τ).loc Cert.KernelIdeal.main_arg4)
      ∧ r.2.mem ((c : Thread Cert.KernelIdeal.nD Cert.KernelIdeal.τ).loc Cert.KernelIdeal.main_arg5) = m ((c : Thread Cert.KernelIdeal.nD Cert.KernelIdeal.τ).loc Cert.KernelIdeal.main_arg5)
      ∧ r.2.mem ((c : Thread Cert.KernelIdeal.nD Cert.KernelIdeal.τ).loc Cert.KernelIdeal.main_arg6) = m ((c : Thread Cert.KernelIdeal.nD Cert.KernelIdeal.τ).loc Cert.KernelIdeal.main_arg6)
      ∧ r.2.mem ((c : Thread Cert.KernelIdeal.nD Cert.KernelIdeal.τ).loc Cert.KernelIdeal.main_arg7) = m ((c : Thread Cert.KernelIdeal.nD Cert.KernelIdeal.τ).loc Cert.KernelIdeal.main_arg7)
      ∧ r.2.mem ((c : Thread Cert.KernelIdeal.nD Cert.KernelIdeal.τ).loc Cert.KernelIdeal.main_arg8) = m ((c : Thread Cert.KernelIdeal.nD Cert.KernelIdeal.τ).loc Cert.KernelIdeal.main_arg8) :=
  (θ_run Cert.KernelIdeal.defs _ _).mono (fun r h c => ⟨(h c).1.trans (Cert.KernelIdeal.Blocks.final m c), (h c).2⟩)
    (Cert.KernelIdeal.Value.run_blocks m ρ)

/-- The kernel's output array, in the reference's own stages: the segment sums and counts its launch finds are the
    reference's stages of the same arguments, the count columns and bias rows read back as the vectors they reshape. -/
theorem whole_eq (m : (ℓ : Loc Cert.KernelIdeal.nD Cert.KernelIdeal.τ Cert.KernelIdeal.sig) → Buf (Elt Ideal) ℓ) (c : Dev Cert.KernelIdeal.nD) :
    Cert.KernelIdeal.Blocks.whole m c
    = Cert.SignedConv.result (m ((c : Thread Cert.KernelIdeal.nD Cert.KernelIdeal.τ).loc Cert.KernelIdeal.main_arg0))
        (Cert.ReferenceIdeal.Read.val_main_v13 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)))
        (Cert.ReferenceIdeal.Read.val_main_v17 (F := Ideal) (m ((c : Thread Cert.KernelIdeal.nD Cert.KernelIdeal.τ).loc Cert.KernelIdeal.main_arg1)))
        (Cert.ReferenceIdeal.Read.val_main_v44 (F := Ideal) (m ((c : Thread Cert.KernelIdeal.nD Cert.KernelIdeal.τ).loc Cert.KernelIdeal.main_arg0)) (m ((c : Thread Cert.KernelIdeal.nD Cert.KernelIdeal.τ).loc Cert.KernelIdeal.main_arg2)))
        (Cert.ReferenceIdeal.Read.val_main_v48 (F := Ideal) (m ((c : Thread Cert.KernelIdeal.nD Cert.KernelIdeal.τ).loc Cert.KernelIdeal.main_arg2)))
        (m ((c : Thread Cert.KernelIdeal.nD Cert.KernelIdeal.τ).loc Cert.KernelIdeal.main_arg3)) (m ((c : Thread Cert.KernelIdeal.nD Cert.KernelIdeal.τ).loc Cert.KernelIdeal.main_arg4))
        (m ((c : Thread Cert.KernelIdeal.nD Cert.KernelIdeal.τ).loc Cert.KernelIdeal.main_arg5))
        (m ((c : Thread Cert.KernelIdeal.nD Cert.KernelIdeal.τ).loc Cert.KernelIdeal.main_arg6)) (m ((c : Thread Cert.KernelIdeal.nD Cert.KernelIdeal.τ).loc Cert.KernelIdeal.main_arg7))
        (m ((c : Thread Cert.KernelIdeal.nD Cert.KernelIdeal.τ).loc Cert.KernelIdeal.main_arg8)) := by
  unfold Cert.KernelIdeal.Blocks.whole
  show Cert.SignedConv.result (Cert.KernelIdeal.Gen.V m c Cert.KernelIdeal.main_arg0) (Cert.KernelIdeal.Gen.V m c Cert.KernelIdeal.main_v13)
      (Cert.SignedConv.col (Cert.KernelIdeal.Gen.V m c Cert.KernelIdeal.main_v18)) (Cert.KernelIdeal.Gen.V m c Cert.KernelIdeal.main_v32)
      (Cert.SignedConv.col (Cert.KernelIdeal.Gen.V m c Cert.KernelIdeal.main_v37)) (Cert.KernelIdeal.Gen.V m c Cert.KernelIdeal.main_arg3)
      (Cert.KernelIdeal.Gen.V m c Cert.KernelIdeal.main_arg4) (Cert.SignedConv.row (Cert.KernelIdeal.Gen.V m c Cert.KernelIdeal.main_v38))
      (Cert.KernelIdeal.Gen.V m c Cert.KernelIdeal.main_arg6) (Cert.KernelIdeal.Gen.V m c Cert.KernelIdeal.main_arg7)
      (Cert.SignedConv.row (Cert.KernelIdeal.Gen.V m c Cert.KernelIdeal.main_v39)) = _
  rw [Cert.KernelIdeal.Entry.cnt_pos, Cert.KernelIdeal.Entry.cnt_neg, Cert.KernelIdeal.Entry.bias_pos, Cert.KernelIdeal.Entry.bias_neg,
    Cert.KernelIdeal.Entry.sum_pos, Cert.KernelIdeal.Entry.sum_neg, Cert.KernelIdeal.Gen.V_main_arg0, Cert.KernelIdeal.Gen.V_main_arg3,
    Cert.KernelIdeal.Gen.V_main_arg4, Cert.KernelIdeal.Gen.V_main_arg6, Cert.KernelIdeal.Gen.V_main_arg7]

/-- On the extended reals, from memories agreeing on the arguments, the kernel's output array ends at the
    specification of the segment sums it computed (`kernel_run`, `whole_eq`) and the reference's at the
    specification of the segment sums IT computed (`Reference`): the same stages of arguments that agree. -/
theorem algebraic : Cert.algebraic_KernelIdeal_ReferenceIdeal := by
  intro m ρ m' ρ' _ hagree
  refine ⟨fun c => Cert.KernelIdeal.Blocks.whole m c, kernel_run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Blocks.whole m c
  rw [Cert.ReferenceIdeal.Read.val_main_v62_eq, Cert.ReferenceIdeal.RefValue.result_eq, whole_eq]
  obtain ⟨h0, h1, h2, h3, h4, h5, h6, h7, h8⟩ := hagree c
  rw [h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
